-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S1x4096 : Shape := ⟨2, ![1, 4096]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 7
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S1024x256, .f32⟩
  | .local _ .vmem, ⟨7, _⟩ => ⟨S1024x256, .f32⟩
  | .local _ .vmem, ⟨8, _⟩ => ⟨S2048x256, .bf16⟩
  | .local _ .vmem, ⟨9, _⟩ => ⟨S2048x256, .bf16⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .f32 = 32 ∨ (Rect.block (s := S8192x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x4096.size a
  hwx1_1 : ∀ i : grid1.Coords, EltTy.bits .bf16 = 32 ∨ (Rect.block (s := S4096x4096) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Bits.R0.lean ====
/-
  The first kernel region: the masked weights.

  The region walks the 4096 x 4096 weight and mask arrays in 16 bands of 256 rows. At band `t` the body loads the
  band of the weights and the band of the mask, multiplies them entry by entry, narrows the product to the
  half-width float format, and stores the result as the band of the output array. Nothing is kept between bands.

  Stated at a parameter `V`, the contents of the core's buffers when the region is entered: each window's block at
  a band, what the body leaves in the output's staging buffer as a function of the two input blocks, the body's
  triple, the region's proof data and the body obligation at every band.
-/
import proofs.«167494_j73718818668813_2_alg».proof.Proof.Gen.Kernel.Launch
import proofs.«167494_j73718818668813_2_alg».proof.Proof.Gen.Kernel.Skeleton
import proofs.«167494_j73718818668813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at band `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weights' staging buffer holds the band of the weights at every band, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask's staging buffer holds the band of the mask at every band, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output's buffer -/

/-- The whole 256 x 4096 band, the one rectangle the body loads and stores through. -/
abbrev band0 : Rect S256x4096 := Rect.unit (s := S256x4096) ![0, 0] S256x4096.size inb_S256x4096_S256x4096_0_0

/-- The output's staging buffer after the body, from the two input blocks: its one store, of the narrowed product. -/
def out0_2 (x0 x1 : Vec F S256x4096 .f32) : Vec F S256x4096 .bf16 :=
  View.canon [⟨band0, k0_pay1 (View.ld x0 band0) (View.ld x1 band0)⟩]

/-- The one store covers the buffer. -/
theorem cover0_2 (p0 : Vec F S256x4096 .bf16) (y : S256x4096.Idx) :
    ∃ pc ∈ ([⟨band0, p0⟩] : List (View.Piece (Elt F) S256x4096 .bf16)), y ∈ pc.1.set :=
  View.cover_of_tiled [⟨band0, p0⟩] S256x4096.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S256x4096 .f32) (harg1 : arg1.IsWhole)
    (arg2 : Memref sig .tc .vmem S256x4096 .f32) (harg2 : arg2.IsWhole) (arg3 : Memref sig .tc .vmem S256x4096 .bf16) (harg3 : arg3.IsWhole)
    (x0 x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__prefuse_kernel i arg1 harg1 arg2 harg2 arg3 harg3) K := by
  simp only [cc0__prefuse_kernel_eq_skeleton]; unfold cc0__prefuse_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them; after the body at band `t` each
    input's buffer at its block and the output's at `out0_2` of the two blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic band -/

/-- What the body is called with at band `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any band: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every band. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.Bits.R1Base.lean ====
/-
  The second kernel region, the matrix product: what its three cases share.

  The grid is 8 x 2 x 16: a block of 1024 tokens, a block of 2048 output features, and — innermost — one of 16
  slabs of 256 input features. The point number is ((a * 2) + b) * 16 + k, so the slab is the point number mod 16.
  The body keeps a 1024 x 2048 accumulator in a scratch buffer across the 16 slabs of one (token block, feature block)
  pair: at slab 0 it first clears the accumulator; at every slab it adds the product of the data block with the
  transposed masked-weight block; at slab 15 it adds the bias row to every row and stores the result in the output
  block. Hence three cases: slab 0 (clear, accumulate), slabs 1 to 14 (accumulate), slab 15 (accumulate, emit).

  Here: each window's block at a point; the two branch conditions in closed form; where the output window is idle;
  the memrefs the body is called with; and the region invariant with the scratch named.
-/
import proofs.«167494_j73718818668813_2_alg».proof.Proof.Gen.Kernel.Launch
import proofs.«167494_j73718818668813_2_alg».proof.Proof.Gen.Kernel.Skeleton
import proofs.«167494_j73718818668813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The data window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The masked-weight window's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds its block at every point: it is fetched only when the feature block
    changes, and between two fetches its block index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "This is slab 0": the condition under which the body clears the accumulator. -/
abbrev cond1_0 (i : grid1.Coords) : Prop := (Scalar.cmpi .ne (Scalar.extui (Scalar.cmpi .eq (BitVec.ofNat 32 (i 2).val) 0#32)) 0#32) = 1#1
/-- It holds at the points that are 0 mod 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is slab 15": the condition under which the body emits the output block. -/
abbrev cond1_1 (i : grid1.Coords) : Prop := k1_cond2 i = 1#1
/-- It holds at the points that are 15 mod 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At slab 0 the body stores nothing into the output window, and its block is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same at slabs 1 to 14. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At slab 15 the body stores into the output window. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1024x2048 .f32 := (Memref.whole cc1_stg3_0 : Memref sig .tc .vmem S1024x2048 .f32).view
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x2048 .f32 := Memref.whole cc1_scratch0
abbrev VS1_0 : View sig .tc .vmem S1024x2048 .f32 := scM1_0.view

/-! ## The region invariant with the accumulator named -/

/-- The scoped buffers this region never touches (the first region's six staging buffers), each whole at some
    contents, beside a statement `S` about the accumulator. -/
def rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- A statement about the accumulator may be weakened under the untouched buffers. -/
theorem rest1_mono (c : Dev nD) {S S' : sProp 𝕄} (h : S ⊢ S') : rest1 (F := F) c S ⊢ rest1 (F := F) c S' := by
  unfold rest1
  iintro ⟨H0, H1, H2, H3, H4, H5, HS⟩
  isplitl [H0]; · iexact H0
  isplitl [H1]; · iexact H1
  isplitl [H2]; · iexact H2
  isplitl [H3]; · iexact H3
  isplitl [H4]; · iexact H4
  isplitl [H5]; · iexact H5
  iapply h; iexact HS

/-- The accumulator's statement taken out from under the untouched buffers, and put back. -/
theorem rest1_split (c : Dev nD) (S : sProp 𝕄) : rest1 (F := F) c S ⊢ iprop(rest1 (F := F) c iprop(emp) ∗ S) := by
  unfold rest1
  iintro ⟨H0, H1, H2, H3, H4, H5, HS⟩
  isplitr [HS]
  · isplitl [H0]; · iexact H0
    isplitl [H1]; · iexact H1
    isplitl [H2]; · iexact H2
    isplitl [H3]; · iexact H3
    isplitl [H4]; · iexact H4
    isplitl [H5]; · iexact H5
    iempintro
  iexact HS
theorem rest1_join (c : Dev nD) (S : sProp 𝕄) : iprop(rest1 (F := F) c iprop(emp) ∗ S) ⊢ rest1 (F := F) c S := by
  unfold rest1
  iintro ⟨⟨H0, H1, H2, H3, H4, H5, -⟩, HS⟩
  isplitl [H0]; · iexact H0
  isplitl [H1]; · iexact H1
  isplitl [H2]; · iexact H2
  isplitl [H3]; · iexact H3
  isplitl [H4]; · iexact H4
  isplitl [H5]; · iexact H5
  iexact HS

/-- The class invariant of the region with the accumulator as a memref owned at some contents. -/
theorem PhiA1_eq (c : Dev nD) :
    (Pipeline.ΦA spec1 c : sProp 𝕄)
      = iprop(rest1 (F := F) c (iprop(∃ d, owns (c : Thread nD τ) scM1_0 fullShare d)) ∗ (∃ r, prngReg c r)) := by
  unfold Pipeline.ΦA rest1; rw [scopedRest1_eq]; simp only [scM1_0, owns_whole]; try rfl

end Cert.Kernel.Frame

end
-- ==== Proof.Bits.R1A.lean ====
/-
  The matrix-product body at slab 0: it clears the accumulator, then adds the slab's product to it; it stores nothing
  into the output window, whose buffer is handed back as found. The pieces the accumulator ends with are found by
  running the body.
-/
import proofs.«167494_j73718818668813_2_alg».proof.Proof.Bits.R1Base

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output window's buffer (`L3`) and in the accumulator (`LS0`),
    with the proof that on whole memrefs, the inputs' at their contents, the body runs to the continuation holding the
    inputs' as they were and those pieces written. -/
noncomputable def kernelRun1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frame

end
-- ==== Proof.Bits.R1B.lean ====
/-
  The matrix-product body at slabs 1 to 14: it adds the slab's product to the accumulator the slab before left; it
  stores nothing into the output window, whose buffer is handed back as found.
-/
import proofs.«167494_j73718818668813_2_alg».proof.Proof.Bits.R1A

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output window's buffer (`L3`) and in the accumulator (`LS0`),
    with the proof that on whole memrefs, the inputs' at their contents, the body runs to the continuation holding the
    inputs' as they were and those pieces written. -/
noncomputable def kernelRun1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frame

end
-- ==== Proof.Bits.R1C.lean ====
/-
  The matrix-product body at slab 15: it adds the slab's product to the accumulator the slab before left, then stores
  the accumulator plus the bias row into the output window.
-/
import proofs.«167494_j73718818668813_2_alg».proof.Proof.Bits.R1B

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output window's buffer (`L3`) and in the accumulator (`LS0`),
    with the proof that on whole memrefs, the inputs' at their contents, the body runs to the continuation holding the
    inputs' as they were and those pieces written. -/
noncomputable def kernelRun1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Frame

end
-- ==== Proof.Bits.R1.lean ====
/-
  The second kernel region, the matrix product: what its buffers hold point by point, the proof data, and the body
  obligation.

  `outsAt1 n` is the pair (output window's buffer, accumulator) after the body at point `n`: at a point that is
  0 mod 16 the slab-0 case, which depends on nothing earlier; at a point that is 15 mod 16 the slab-15 case over the
  accumulator the point before left; elsewhere the middle case over the accumulator the point before left. The region
  invariant before point `n` holds the accumulator at the second component of `outsAt1 (n - 1)` (at anything before
  the first point), beside the scoped buffers the region never touches and the generator register.
-/
import proofs.«167494_j73718818668813_2_alg».proof.Proof.Bits.R1C

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What case A leaves in the output window's buffer: its pieces read back (none: a placeholder nothing consults, the window being idle there). -/
def out1_A_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) : Vec F S1024x2048 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- What case A leaves in the accumulator: its pieces read back. -/
def sout1_A_0 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output window's buffer: its pieces read back (none: a placeholder nothing consults, the window being idle there). -/
def out1_B_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) : Vec F S1024x2048 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

/-- What case B leaves in the accumulator: its pieces read back. -/
def sout1_B_0 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At slab 15 the one store into the output window covers its buffer. -/
theorem cover1_C_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- What case C leaves in the output window's buffer: its pieces read back. -/
def out1_C_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- What case C leaves in the accumulator: its pieces read back. -/
def sout1_C_0 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the buffers hold after each point -/

/-- The output window's buffer and the accumulator after the body at point `n`, by recursion on the point. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of slab 0. -/
theorem outsAt1_A (c : Dev nD) (t : Fin cfg1.N) (h0 : t.val % 16 = 0) (h1 : ¬t.val % 16 = 15) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of slabs 1 to 14: over what the point before left. -/
theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of slab 15: over what the point before left. -/
theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before point `n`: before the first point the class invariant (the accumulator at anything); afterwards the
    accumulator at what the point before left, beside the untouched scoped buffers and the generator register. -/
def PhiS (c : Dev nD) : (n : ℕ) → n ≤ cfg1.N → sProp 𝕄
  | 0, _ => Pipeline.ΦA spec1 c
  | n + 1, hn => iprop(rest1 (F := F) c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(rest1 (F := F) c (owns (c : Thread nD τ) scM1_0 fullShare ((outsAt1 V c (n - 1) (by omega)).2)) ∗ (∃ r, prngReg c r)) := by
  cases n with
  | zero => exact absurd rfl hz
  | succ n => rfl

/-! ## The region's proof data -/

/-- The proof data of the region on core `c`: the arrays as the region finds them; after the body at point `t` each
    input's buffer at its block and the output's at `outsAt1`'s first component; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' memrefs hold their blocks; the closed forms say which case the point is in; the
    invariant hands the body the accumulator at what the point before left (at anything at the first point) and takes it
    back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 256 := lt_of_lt_of_eq t.isLt (show cfg1.N = 256 from N_1)
  by_cases h0 : t.val % 16 = 0
  · have h1 : ¬t.val % 16 = 15 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    have hin : (dat1 V c).Φ t.castSucc ⊢ iprop(rest1 (F := F) c (iprop(∃ d, owns (c : Thread nD τ) scM1_0 fullShare d)) ∗ (∃ r, prngReg c r)) := by
      rw [PhiS_castSucc V c t]
      by_cases hz : t.val = 0
      · rw [PhiS_zero V c _ _ hz, PhiA1_eq]
      · rw [PhiS_pos V c _ _ hz]
        exact sep_mono (rest1_mono c (by iintro H; iexists _; iexact H)) .rfl
    iintro ⟨HΦ, Ho, ⟨%d0, H0⟩, ⟨%d1, H1⟩, ⟨%d2, H2⟩, ⟨%d3, H3⟩⟩
    ihave HΦ' := hin $$ HΦ
    icases HΦ' with ⟨HR, Hg⟩
    ihave HR' := (rest1_split (F := F) c _) $$ HR
    icases HR' with ⟨HR, HS0⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg HR]
    · isplitl [HS0 HR]
      · iapply (rest1_join (F := F) c _)
        isplitl [HR]; · iexact HR
        unfold owns; iexists _; isplitr
        swap; · iexact HS0
        ipureintro; exact View.read_writes_of_cover _ _ _ _ _ (scover1_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (rest1_split (F := F) c _) $$ HR
      icases HR' with ⟨HR, HS0⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg HR]
      · isplitl [HS0 HR]
        · iapply (rest1_join (F := F) c _)
          isplitl [HR]; · iexact HR
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (rest1_split (F := F) c _) $$ HR
      icases HR' with ⟨HR, HS0⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg HR]
      · isplitl [HS0 HR]
        · iapply (rest1_join (F := F) c _)
          isplitl [HR]; · iexact HR
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS V c (Fin.last cfg1.N).val (Nat.le_of_lt_succ (Fin.last cfg1.N).isLt) from rfl, PhiS_pos V c _ _ ht, PhiA1_eq]
  exact sep_mono (rest1_mono c (by iintro H; iexists _; iexact H)) .rfl

end Cert.Kernel.Frame

end
-- ==== Proof.Bits.Run.lean ====
/-
  The whole program: the two kernel regions with the one host operation between them, run from the launch to the
  return.

  The contents of the core's buffers at the four boundaries are a fold from the launch memory: as launched; after
  the first region, whose arrays hold what its write-backs leave (the masked weights in their buffer); after the host
  operation that lays the bias out as one row; after the second region, whose arrays hold what its write-backs leave
  (the result in its buffer). No step writes an argument array, so each argument reads back through the fold to its
  launch contents. Each region is a segment entered from "every unscoped buffer at the boundary's contents, the
  generator register at some state, nothing owed" and left at the same statement one boundary on.
-/
import proofs.«167494_j73718818668813_2_alg».proof.Proof.Bits.R0
import proofs.«167494_j73718818668813_2_alg».proof.Proof.Bits.R1
import proofs.«167494_j73718818668813_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wa : Dev nD → Valuation τ sig (Elt F) := fun c b => m ((c : Dev nD), b)
/-- The same read at the TensorCore's references (what the first region's proof data take). -/
abbrev Va : (c : Dev nD) → (b : Ref sig .tc) → Buf (Elt F) ((c : Thread nD τ).loc b) := fun c b => Wa m c b
/-- At the first region's exit: its arrays at what the pipeline leaves, every other buffer as entered. -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)

/-- After the host operation (the second region's entry). -/
abbrev Wc : Dev nD → Valuation τ sig (Elt F) := fun c => StableHlo.after hostOps1 (Wb m c)
abbrev Vc : (c : Dev nD) → (b : Ref sig .tc) → Buf (Elt F) ((c : Thread nD τ).loc b) := fun c b => Wc m c b
/-- The host operation writes only the bias row's buffer. -/
theorem Wc_of (c : Dev nD) (r : Ref sig .tc) (h : r ∉ hostOps1_W) : Wc m c (Proc.devRef .tc r) = Wb m c (Proc.devRef .tc r) :=
  StableHlo.after_of_writes_sub hostOps1 _ hostOps1_writes h

/-- At the second region's exit: its arrays at what the pipeline leaves, every other buffer as entered. -/
def Wd (c : Dev nD) : Valuation τ sig (Elt F) :=
  Pipeline.withArrays spec1 c (Wc m c) fun w => (dat1 (Vc m) c).arrAt w cfg1.N
theorem Wd_arr (c : Dev nD) (w : Fin cfg1.W) :
    Wd m c (Proc.devRef .tc (Pipeline.arrRef spec1 w)) = (dat1 (Vc m) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m c (Proc.devRef .tc b) = Wc m c (Proc.devRef .tc b) := by
  unfold Wd; exact Pipeline.withArrays_of_ne spec1 c _ _ b hb
abbrev Vd : (c : Dev nD) → (b : Ref sig .tc) → Buf (Elt F) ((c : Thread nD τ).loc b) := fun c b => Wd m c b
theorem hF1 (c : Dev nD) (w : Fin cfg1.W) : (dat1 (Vc m) c).arrAt w cfg1.N = Vd m c (Pipeline.arrRef spec1 w) :=
  (Wd_arr m c w).symm
theorem hrest1 (c : Dev nD) : ∀ b, b ∉ Finset.univ.image (Pipeline.arrRef spec1) → Vd m c b = Vc m c b :=
  fun b hb => Wd_of_ne m c b fun w e => hb (Finset.mem_image.mpr ⟨w, Finset.mem_univ _, e⟩)

/-! ### The arguments end as launched -/

/-- The data array: an input window of the second region; no other step touches it. -/
theorem Wd_main_arg0 (c : Dev nD) : Wd m c (Proc.devRef .tc main_arg0) = m ((c : Thread nD τ).loc main_arg0) :=
  calc Wd m c (Proc.devRef .tc main_arg0)
    _ = Wc m c (Proc.devRef .tc main_arg0) := (Wd_arr m c 0).trans (((dat1 (Vc m) c).arrAt_in 0 rfl _).trans (A_eq1 (Vc m) c 0))
    _ = Wb m c (Proc.devRef .tc main_arg0) := Wc_of m c main_arg0 (by decide)
    _ = Wa m c (Proc.devRef .tc main_arg0) := Wb_of_ne m c main_arg0 (by decide)
    _ = m ((c : Thread nD τ).loc main_arg0) := rfl

/-- The weights: an input window of the first region; no other step touches them. -/
theorem Wd_main_arg1 (c : Dev nD) : Wd m c (Proc.devRef .tc main_arg1) = m ((c : Thread nD τ).loc main_arg1) :=
  calc Wd m c (Proc.devRef .tc main_arg1)
    _ = Wc m c (Proc.devRef .tc main_arg1) := Wd_of_ne m c main_arg1 (by decide)
    _ = Wb m c (Proc.devRef .tc main_arg1) := Wc_of m c main_arg1 (by decide)
    _ = Wa m c (Proc.devRef .tc main_arg1) := (Wb_arr m c 0).trans (((dat0 (Va m) c).arrAt_in 0 rfl _).trans (A_eq0 (Va m) c 0))
    _ = m ((c : Thread nD τ).loc main_arg1) := rfl

/-- The mask: the other input window of the first region. -/
theorem Wd_main_arg2 (c : Dev nD) : Wd m c (Proc.devRef .tc main_arg2) = m ((c : Thread nD τ).loc main_arg2) :=
  calc Wd m c (Proc.devRef .tc main_arg2)
    _ = Wc m c (Proc.devRef .tc main_arg2) := Wd_of_ne m c main_arg2 (by decide)
    _ = Wb m c (Proc.devRef .tc main_arg2) := Wc_of m c main_arg2 (by decide)
    _ = Wa m c (Proc.devRef .tc main_arg2) := (Wb_arr m c 1).trans (((dat0 (Va m) c).arrAt_in 1 rfl _).trans (A_eq0 (Va m) c 1))
    _ = m ((c : Thread nD τ).loc main_arg2) := rfl

/-- The bias: read by the host operation only; no region stages it. -/
theorem Wd_main_arg3 (c : Dev nD) : Wd m c (Proc.devRef .tc main_arg3) = m ((c : Thread nD τ).loc main_arg3) :=
  calc Wd m c (Proc.devRef .tc main_arg3)
    _ = Wc m c (Proc.devRef .tc main_arg3) := Wd_of_ne m c main_arg3 (by decide)
    _ = Wb m c (Proc.devRef .tc main_arg3) := Wc_of m c main_arg3 (by decide)
    _ = Wa m c (Proc.devRef .tc main_arg3) := Wb_of_ne m c main_arg3 (by decide)
    _ = m ((c : Thread nD τ).loc main_arg3) := rfl

/-- The result array ends at what the second region's write-backs leave. -/
theorem Wd_main_v2 (c : Dev nD) : Wd m c (Proc.devRef .tc main_v2) = (dat1 (Vc m) c).arrAt 3 cfg1.N := Wd_arr m c 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vc m) c
abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core's dues, none. -/
abbrev Rr (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tn (c : Dev nD) : sProp 𝕄 := iprop(StableHlo.held (c : Thread nD τ) (Pipeline.ucRefs τ sig) (Wd m c) ∗ ∃ r, prngReg c r)

/-! ## The regions as segments -/

set_option backward.isDefEq.respectTransparency.types false in
/-- The first region over the thread state: entered from every unscoped buffer at launch contents, left with the
    masked weights written. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ Lz lvz 0 fun _ _ => rfl
  pre c := iprop(StableHlo.held (c : Thread nD τ) (Pipeline.ucRefs τ sig) (Wa m c) ∗ Rr c)
  post c := iprop(StableHlo.held (c : Thread nD τ) (Pipeline.ucRefs τ sig) (Wb m c) ∗ Rr c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from the buffers after the host operation, left with the result
    written. The accumulator and the other scoped buffers go into the region invariant and come back. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (Vc m) c).loose
  hwaits := Pipeline.hwaits_of_owed_zero _ _ _ _ Lz lvz 1 fun _ _ => rfl
  pre c := iprop(StableHlo.held (c : Thread nD τ) (Pipeline.ucRefs τ sig) (Wc m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (Vc m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vc m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vc m c) (Vd m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order. -/
abbrev items : List (Pipeline.Seg (pcfgs (F := F)) adm (pdats m) () defs₀ 𝒱₀ Lz lvz) :=
  [ .region (reg0 m),
    .host (hseg hostOps1 hostOps1_sub hostOps1_fresh (Wb m)),
    .region (reg1 m) ]

theorem main_run (c : Dev nD) : main (F := F) c = Pipeline.Seg.run (items m) := (main_chain c).trans (by chain_rfl)

set_option backward.isDefEq.respectTransparency.types false in
/-- From any memory with zero counters, every weakly fair execution of the program terminates, nothing faulting, and
    every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) adm (pdats m) () cellOf_inj emb₁ defs₀ 𝒱₀ Lz lvz m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ Rr c)) (Tₙ := Tn m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c => h c)

/-- The frame: the program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Wd_main_arg0 m c),
     (h c _ (mem_uc main_arg1 (by decide))).trans (Wd_main_arg1 m c),
     (h c _ (mem_uc main_arg2 (by decide))).trans (Wd_main_arg2 m c),
     (h c _ (mem_uc main_arg3 (by decide))).trans (Wd_main_arg3 m c)⟩) (run_main m ρ)

/-- The same run with the result array named: it ends at what the second region's write-backs leave. -/
theorem run_result : θ_run defs (onTc (τ := τ) (main (F := F))) ⟨m, fun _ => 0, ρ⟩ (fun r => ∀ c : Dev nD,
      r.2.mem ((c.tc : Thread nD τ).loc main_v2) = (dat1 (Vc m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (Wd_main_v2 m c),
     (h c _ (mem_uc main_arg0 (by decide))).trans (Wd_main_arg0 m c),
     (h c _ (mem_uc main_arg1 (by decide))).trans (Wd_main_arg1 m c),
     (h c _ (mem_uc main_arg2 (by decide))).trans (Wd_main_arg2 m c),
     (h c _ (mem_uc main_arg3 (by decide))).trans (Wd_main_arg3 m c)⟩) (run_main m ρ)

end Cert.Kernel.Frame

end
-- ==== Proof.Ideal.R0.lean ====
/-
  The first kernel region: the masked weights.

  The region walks the 4096 x 4096 weight and mask arrays in 16 bands of 256 rows. At band `t` the body loads the
  band of the weights and the band of the mask, multiplies them entry by entry, narrows the product to the
  half-width float format, and stores the result as the band of the output array. Nothing is kept between bands.

  Stated at a parameter `V`, the contents of the core's buffers when the region is entered: each window's block at
  a band, what the body leaves in the output's staging buffer as a function of the two input blocks, the body's
  triple, the region's proof data and the body obligation at every band.
-/
import proofs.«167494_j73718818668813_2_alg».proof.Proof.Gen.KernelIdeal.Launch
import proofs.«167494_j73718818668813_2_alg».proof.Proof.Gen.KernelIdeal.Skeleton
import proofs.«167494_j73718818668813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at band `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weights' staging buffer holds the band of the weights at every band, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask's staging buffer holds the band of the mask at every band, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output's buffer -/

/-- The whole 256 x 4096 band, the one rectangle the body loads and stores through. -/
abbrev band0 : Rect S256x4096 := Rect.unit (s := S256x4096) ![0, 0] S256x4096.size inb_S256x4096_S256x4096_0_0

/-- The output's staging buffer after the body, from the two input blocks: its one store, of the narrowed product. -/
def out0_2 (x0 x1 : Vec F S256x4096 .f32) : Vec F S256x4096 .bf16 :=
  View.canon [⟨band0, k0_pay1 (View.ld x0 band0) (View.ld x1 band0)⟩]

/-- The one store covers the buffer. -/
theorem cover0_2 (p0 : Vec F S256x4096 .bf16) (y : S256x4096.Idx) :
    ∃ pc ∈ ([⟨band0, p0⟩] : List (View.Piece (Elt F) S256x4096 .bf16)), y ∈ pc.1.set :=
  View.cover_of_tiled [⟨band0, p0⟩] S256x4096.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S256x4096 .f32) (harg1 : arg1.IsWhole)
    (arg2 : Memref sig .tc .vmem S256x4096 .f32) (harg2 : arg2.IsWhole) (arg3 : Memref sig .tc .vmem S256x4096 .bf16) (harg3 : arg3.IsWhole)
    (x0 x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__prefuse_kernel i arg1 harg1 arg2 harg2 arg3 harg3) K := by
  simp only [cc0__prefuse_kernel_eq_skeleton]; unfold cc0__prefuse_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them; after the body at band `t` each
    input's buffer at its block and the output's at `out0_2` of the two blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic band -/

/-- What the body is called with at band `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any band: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every band. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.Ideal.R1Base.lean ====
/-
  The second kernel region, the matrix product: what its three cases share.

  The grid is 8 x 2 x 16: a block of 1024 tokens, a block of 2048 output features, and — innermost — one of 16
  slabs of 256 input features. The point number is ((a * 2) + b) * 16 + k, so the slab is the point number mod 16.
  The body keeps a 1024 x 2048 accumulator in a scratch buffer across the 16 slabs of one (token block, feature block)
  pair: at slab 0 it first clears the accumulator; at every slab it adds the product of the data block with the
  transposed masked-weight block; at slab 15 it adds the bias row to every row and stores the result in the output
  block. Hence three cases: slab 0 (clear, accumulate), slabs 1 to 14 (accumulate), slab 15 (accumulate, emit).

  Here: each window's block at a point; the two branch conditions in closed form; where the output window is idle;
  the memrefs the body is called with; and the region invariant with the scratch named.
-/
import proofs.«167494_j73718818668813_2_alg».proof.Proof.Gen.KernelIdeal.Launch
import proofs.«167494_j73718818668813_2_alg».proof.Proof.Gen.KernelIdeal.Skeleton
import proofs.«167494_j73718818668813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The data window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The masked-weight window's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds its block at every point: it is fetched only when the feature block
    changes, and between two fetches its block index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "This is slab 0": the condition under which the body clears the accumulator. -/
abbrev cond1_0 (i : grid1.Coords) : Prop := (Scalar.cmpi .ne (Scalar.extui (Scalar.cmpi .eq (BitVec.ofNat 32 (i 2).val) 0#32)) 0#32) = 1#1
/-- It holds at the points that are 0 mod 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is slab 15": the condition under which the body emits the output block. -/
abbrev cond1_1 (i : grid1.Coords) : Prop := k1_cond2 i = 1#1
/-- It holds at the points that are 15 mod 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At slab 0 the body stores nothing into the output window, and its block is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same at slabs 1 to 14. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At slab 15 the body stores into the output window. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1024x2048 .f32 := (Memref.whole cc1_stg3_0 : Memref sig .tc .vmem S1024x2048 .f32).view
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x2048 .f32 := Memref.whole cc1_scratch0
abbrev VS1_0 : View sig .tc .vmem S1024x2048 .f32 := scM1_0.view

/-! ## The region invariant with the accumulator named -/

/-- The scoped buffers this region never touches (the first region's six staging buffers), each whole at some
    contents, beside a statement `S` about the accumulator. -/
def rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- A statement about the accumulator may be weakened under the untouched buffers. -/
theorem rest1_mono (c : Dev nD) {S S' : sProp 𝕄} (h : S ⊢ S') : rest1 (F := F) c S ⊢ rest1 (F := F) c S' := by
  unfold rest1
  iintro ⟨H0, H1, H2, H3, H4, H5, HS⟩
  isplitl [H0]; · iexact H0
  isplitl [H1]; · iexact H1
  isplitl [H2]; · iexact H2
  isplitl [H3]; · iexact H3
  isplitl [H4]; · iexact H4
  isplitl [H5]; · iexact H5
  iapply h; iexact HS

/-- The accumulator's statement taken out from under the untouched buffers, and put back. -/
theorem rest1_split (c : Dev nD) (S : sProp 𝕄) : rest1 (F := F) c S ⊢ iprop(rest1 (F := F) c iprop(emp) ∗ S) := by
  unfold rest1
  iintro ⟨H0, H1, H2, H3, H4, H5, HS⟩
  isplitr [HS]
  · isplitl [H0]; · iexact H0
    isplitl [H1]; · iexact H1
    isplitl [H2]; · iexact H2
    isplitl [H3]; · iexact H3
    isplitl [H4]; · iexact H4
    isplitl [H5]; · iexact H5
    iempintro
  iexact HS
theorem rest1_join (c : Dev nD) (S : sProp 𝕄) : iprop(rest1 (F := F) c iprop(emp) ∗ S) ⊢ rest1 (F := F) c S := by
  unfold rest1
  iintro ⟨⟨H0, H1, H2, H3, H4, H5, -⟩, HS⟩
  isplitl [H0]; · iexact H0
  isplitl [H1]; · iexact H1
  isplitl [H2]; · iexact H2
  isplitl [H3]; · iexact H3
  isplitl [H4]; · iexact H4
  isplitl [H5]; · iexact H5
  iexact HS

/-- The class invariant of the region with the accumulator as a memref owned at some contents. -/
theorem PhiA1_eq (c : Dev nD) :
    (Pipeline.ΦA spec1 c : sProp 𝕄)
      = iprop(rest1 (F := F) c (iprop(∃ d, owns (c : Thread nD τ) scM1_0 fullShare d)) ∗ (∃ r, prngReg c r)) := by
  unfold Pipeline.ΦA rest1; rw [scopedRest1_eq]; simp only [scM1_0, owns_whole]; try rfl

end Cert.KernelIdeal.Frame

end
-- ==== Proof.Ideal.R1A.lean ====
/-
  The matrix-product body at slab 0: it clears the accumulator, then adds the slab's product to it; it stores nothing
  into the output window, whose buffer is handed back as found. The pieces the accumulator ends with are found by
  running the body.
-/
import proofs.«167494_j73718818668813_2_alg».proof.Proof.Ideal.R1Base

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output window's buffer (`L3`) and in the accumulator (`LS0`),
    with the proof that on whole memrefs, the inputs' at their contents, the body runs to the continuation holding the
    inputs' as they were and those pieces written. -/
noncomputable def kernelRun1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frame

end
-- ==== Proof.Ideal.R1B.lean ====
/-
  The matrix-product body at slabs 1 to 14: it adds the slab's product to the accumulator the slab before left; it
  stores nothing into the output window, whose buffer is handed back as found.
-/
import proofs.«167494_j73718818668813_2_alg».proof.Proof.Ideal.R1A

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output window's buffer (`L3`) and in the accumulator (`LS0`),
    with the proof that on whole memrefs, the inputs' at their contents, the body runs to the continuation holding the
    inputs' as they were and those pieces written. -/
noncomputable def kernelRun1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frame

end
-- ==== Proof.Ideal.R1C.lean ====
/-
  The matrix-product body at slab 15: it adds the slab's product to the accumulator the slab before left, then stores
  the accumulator plus the bias row into the output window.
-/
import proofs.«167494_j73718818668813_2_alg».proof.Proof.Ideal.R1B

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output window's buffer (`L3`) and in the accumulator (`LS0`),
    with the proof that on whole memrefs, the inputs' at their contents, the body runs to the continuation holding the
    inputs' as they were and those pieces written. -/
noncomputable def kernelRun1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Frame

end
-- ==== Proof.Ideal.R1.lean ====
/-
  The second kernel region, the matrix product: what its buffers hold point by point, the proof data, and the body
  obligation.

  `outsAt1 n` is the pair (output window's buffer, accumulator) after the body at point `n`: at a point that is
  0 mod 16 the slab-0 case, which depends on nothing earlier; at a point that is 15 mod 16 the slab-15 case over the
  accumulator the point before left; elsewhere the middle case over the accumulator the point before left. The region
  invariant before point `n` holds the accumulator at the second component of `outsAt1 (n - 1)` (at anything before
  the first point), beside the scoped buffers the region never touches and the generator register.
-/
import proofs.«167494_j73718818668813_2_alg».proof.Proof.Ideal.R1C

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What case A leaves in the output window's buffer: its pieces read back (none: a placeholder nothing consults, the window being idle there). -/
def out1_A_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) : Vec F S1024x2048 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- What case A leaves in the accumulator: its pieces read back. -/
def sout1_A_0 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output window's buffer: its pieces read back (none: a placeholder nothing consults, the window being idle there). -/
def out1_B_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) : Vec F S1024x2048 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

/-- What case B leaves in the accumulator: its pieces read back. -/
def sout1_B_0 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At slab 15 the one store into the output window covers its buffer. -/
theorem cover1_C_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- What case C leaves in the output window's buffer: its pieces read back. -/
def out1_C_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- What case C leaves in the accumulator: its pieces read back. -/
def sout1_C_0 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the buffers hold after each point -/

/-- The output window's buffer and the accumulator after the body at point `n`, by recursion on the point. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of slab 0. -/
theorem outsAt1_A (c : Dev nD) (t : Fin cfg1.N) (h0 : t.val % 16 = 0) (h1 : ¬t.val % 16 = 15) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of slabs 1 to 14: over what the point before left. -/
theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of slab 15: over what the point before left. -/
theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before point `n`: before the first point the class invariant (the accumulator at anything); afterwards the
    accumulator at what the point before left, beside the untouched scoped buffers and the generator register. -/
def PhiS (c : Dev nD) : (n : ℕ) → n ≤ cfg1.N → sProp 𝕄
  | 0, _ => Pipeline.ΦA spec1 c
  | n + 1, hn => iprop(rest1 (F := F) c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(rest1 (F := F) c (owns (c : Thread nD τ) scM1_0 fullShare ((outsAt1 V c (n - 1) (by omega)).2)) ∗ (∃ r, prngReg c r)) := by
  cases n with
  | zero => exact absurd rfl hz
  | succ n => rfl

/-! ## The region's proof data -/

/-- The proof data of the region on core `c`: the arrays as the region finds them; after the body at point `t` each
    input's buffer at its block and the output's at `outsAt1`'s first component; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' memrefs hold their blocks; the closed forms say which case the point is in; the
    invariant hands the body the accumulator at what the point before left (at anything at the first point) and takes it
    back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 256 := lt_of_lt_of_eq t.isLt (show cfg1.N = 256 from N_1)
  by_cases h0 : t.val % 16 = 0
  · have h1 : ¬t.val % 16 = 15 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    have hin : (dat1 V c).Φ t.castSucc ⊢ iprop(rest1 (F := F) c (iprop(∃ d, owns (c : Thread nD τ) scM1_0 fullShare d)) ∗ (∃ r, prngReg c r)) := by
      rw [PhiS_castSucc V c t]
      by_cases hz : t.val = 0
      · rw [PhiS_zero V c _ _ hz, PhiA1_eq]
      · rw [PhiS_pos V c _ _ hz]
        exact sep_mono (rest1_mono c (by iintro H; iexists _; iexact H)) .rfl
    iintro ⟨HΦ, Ho, ⟨%d0, H0⟩, ⟨%d1, H1⟩, ⟨%d2, H2⟩, ⟨%d3, H3⟩⟩
    ihave HΦ' := hin $$ HΦ
    icases HΦ' with ⟨HR, Hg⟩
    ihave HR' := (rest1_split (F := F) c _) $$ HR
    icases HR' with ⟨HR, HS0⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg HR]
    · isplitl [HS0 HR]
      · iapply (rest1_join (F := F) c _)
        isplitl [HR]; · iexact HR
        unfold owns; iexists _; isplitr
        swap; · iexact HS0
        ipureintro; exact View.read_writes_of_cover _ _ _ _ _ (scover1_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (rest1_split (F := F) c _) $$ HR
      icases HR' with ⟨HR, HS0⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg HR]
      · isplitl [HS0 HR]
        · iapply (rest1_join (F := F) c _)
          isplitl [HR]; · iexact HR
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (rest1_split (F := F) c _) $$ HR
      icases HR' with ⟨HR, HS0⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg HR]
      · isplitl [HS0 HR]
        · iapply (rest1_join (F := F) c _)
          isplitl [HR]; · iexact HR
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS V c (Fin.last cfg1.N).val (Nat.le_of_lt_succ (Fin.last cfg1.N).isLt) from rfl, PhiS_pos V c _ _ ht, PhiA1_eq]
  exact sep_mono (rest1_mono c (by iintro H; iexists _; iexact H)) .rfl

end Cert.KernelIdeal.Frame

end
-- ==== Proof.Ideal.Run.lean ====
/-
  The whole program: the two kernel regions with the one host operation between them, run from the launch to the
  return.

  The contents of the core's buffers at the four boundaries are a fold from the launch memory: as launched; after
  the first region, whose arrays hold what its write-backs leave (the masked weights in their buffer); after the host
  operation that lays the bias out as one row; after the second region, whose arrays hold what its write-backs leave
  (the result in its buffer). No step writes an argument array, so each argument reads back through the fold to its
  launch contents. Each region is a segment entered from "every unscoped buffer at the boundary's contents, the
  generator register at some state, nothing owed" and left at the same statement one boundary on.
-/
import proofs.«167494_j73718818668813_2_alg».proof.Proof.Ideal.R0
import proofs.«167494_j73718818668813_2_alg».proof.Proof.Ideal.R1
import proofs.«167494_j73718818668813_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wa : Dev nD → Valuation τ sig (Elt F) := fun c b => m ((c : Dev nD), b)
/-- The same read at the TensorCore's references (what the first region's proof data take). -/
abbrev Va : (c : Dev nD) → (b : Ref sig .tc) → Buf (Elt F) ((c : Thread nD τ).loc b) := fun c b => Wa m c b
/-- At the first region's exit: its arrays at what the pipeline leaves, every other buffer as entered. -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)

/-- After the host operation (the second region's entry). -/
abbrev Wc : Dev nD → Valuation τ sig (Elt F) := fun c => StableHlo.after hostOps1 (Wb m c)
abbrev Vc : (c : Dev nD) → (b : Ref sig .tc) → Buf (Elt F) ((c : Thread nD τ).loc b) := fun c b => Wc m c b
/-- The host operation writes only the bias row's buffer. -/
theorem Wc_of (c : Dev nD) (r : Ref sig .tc) (h : r ∉ hostOps1_W) : Wc m c (Proc.devRef .tc r) = Wb m c (Proc.devRef .tc r) :=
  StableHlo.after_of_writes_sub hostOps1 _ hostOps1_writes h

/-- At the second region's exit: its arrays at what the pipeline leaves, every other buffer as entered. -/
def Wd (c : Dev nD) : Valuation τ sig (Elt F) :=
  Pipeline.withArrays spec1 c (Wc m c) fun w => (dat1 (Vc m) c).arrAt w cfg1.N
theorem Wd_arr (c : Dev nD) (w : Fin cfg1.W) :
    Wd m c (Proc.devRef .tc (Pipeline.arrRef spec1 w)) = (dat1 (Vc m) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m c (Proc.devRef .tc b) = Wc m c (Proc.devRef .tc b) := by
  unfold Wd; exact Pipeline.withArrays_of_ne spec1 c _ _ b hb
abbrev Vd : (c : Dev nD) → (b : Ref sig .tc) → Buf (Elt F) ((c : Thread nD τ).loc b) := fun c b => Wd m c b
theorem hF1 (c : Dev nD) (w : Fin cfg1.W) : (dat1 (Vc m) c).arrAt w cfg1.N = Vd m c (Pipeline.arrRef spec1 w) :=
  (Wd_arr m c w).symm
theorem hrest1 (c : Dev nD) : ∀ b, b ∉ Finset.univ.image (Pipeline.arrRef spec1) → Vd m c b = Vc m c b :=
  fun b hb => Wd_of_ne m c b fun w e => hb (Finset.mem_image.mpr ⟨w, Finset.mem_univ _, e⟩)

/-! ### The arguments end as launched -/

/-- The data array: an input window of the second region; no other step touches it. -/
theorem Wd_main_arg0 (c : Dev nD) : Wd m c (Proc.devRef .tc main_arg0) = m ((c : Thread nD τ).loc main_arg0) :=
  calc Wd m c (Proc.devRef .tc main_arg0)
    _ = Wc m c (Proc.devRef .tc main_arg0) := (Wd_arr m c 0).trans (((dat1 (Vc m) c).arrAt_in 0 rfl _).trans (A_eq1 (Vc m) c 0))
    _ = Wb m c (Proc.devRef .tc main_arg0) := Wc_of m c main_arg0 (by decide)
    _ = Wa m c (Proc.devRef .tc main_arg0) := Wb_of_ne m c main_arg0 (by decide)
    _ = m ((c : Thread nD τ).loc main_arg0) := rfl

/-- The weights: an input window of the first region; no other step touches them. -/
theorem Wd_main_arg1 (c : Dev nD) : Wd m c (Proc.devRef .tc main_arg1) = m ((c : Thread nD τ).loc main_arg1) :=
  calc Wd m c (Proc.devRef .tc main_arg1)
    _ = Wc m c (Proc.devRef .tc main_arg1) := Wd_of_ne m c main_arg1 (by decide)
    _ = Wb m c (Proc.devRef .tc main_arg1) := Wc_of m c main_arg1 (by decide)
    _ = Wa m c (Proc.devRef .tc main_arg1) := (Wb_arr m c 0).trans (((dat0 (Va m) c).arrAt_in 0 rfl _).trans (A_eq0 (Va m) c 0))
    _ = m ((c : Thread nD τ).loc main_arg1) := rfl

/-- The mask: the other input window of the first region. -/
theorem Wd_main_arg2 (c : Dev nD) : Wd m c (Proc.devRef .tc main_arg2) = m ((c : Thread nD τ).loc main_arg2) :=
  calc Wd m c (Proc.devRef .tc main_arg2)
    _ = Wc m c (Proc.devRef .tc main_arg2) := Wd_of_ne m c main_arg2 (by decide)
    _ = Wb m c (Proc.devRef .tc main_arg2) := Wc_of m c main_arg2 (by decide)
    _ = Wa m c (Proc.devRef .tc main_arg2) := (Wb_arr m c 1).trans (((dat0 (Va m) c).arrAt_in 1 rfl _).trans (A_eq0 (Va m) c 1))
    _ = m ((c : Thread nD τ).loc main_arg2) := rfl

/-- The bias: read by the host operation only; no region stages it. -/
theorem Wd_main_arg3 (c : Dev nD) : Wd m c (Proc.devRef .tc main_arg3) = m ((c : Thread nD τ).loc main_arg3) :=
  calc Wd m c (Proc.devRef .tc main_arg3)
    _ = Wc m c (Proc.devRef .tc main_arg3) := Wd_of_ne m c main_arg3 (by decide)
    _ = Wb m c (Proc.devRef .tc main_arg3) := Wc_of m c main_arg3 (by decide)
    _ = Wa m c (Proc.devRef .tc main_arg3) := Wb_of_ne m c main_arg3 (by decide)
    _ = m ((c : Thread nD τ).loc main_arg3) := rfl

/-- The result array ends at what the second region's write-backs leave. -/
theorem Wd_main_v2 (c : Dev nD) : Wd m c (Proc.devRef .tc main_v2) = (dat1 (Vc m) c).arrAt 3 cfg1.N := Wd_arr m c 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vc m) c
abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core's dues, none. -/
abbrev Rr (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tn (c : Dev nD) : sProp 𝕄 := iprop(StableHlo.held (c : Thread nD τ) (Pipeline.ucRefs τ sig) (Wd m c) ∗ ∃ r, prngReg c r)

/-! ## The regions as segments -/

set_option backward.isDefEq.respectTransparency.types false in
/-- The first region over the thread state: entered from every unscoped buffer at launch contents, left with the
    masked weights written. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ Lz lvz 0 fun _ _ => rfl
  pre c := iprop(StableHlo.held (c : Thread nD τ) (Pipeline.ucRefs τ sig) (Wa m c) ∗ Rr c)
  post c := iprop(StableHlo.held (c : Thread nD τ) (Pipeline.ucRefs τ sig) (Wb m c) ∗ Rr c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from the buffers after the host operation, left with the result
    written. The accumulator and the other scoped buffers go into the region invariant and come back. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (Vc m) c).loose
  hwaits := Pipeline.hwaits_of_owed_zero _ _ _ _ Lz lvz 1 fun _ _ => rfl
  pre c := iprop(StableHlo.held (c : Thread nD τ) (Pipeline.ucRefs τ sig) (Wc m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (Vc m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vc m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vc m c) (Vd m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order. -/
abbrev items : List (Pipeline.Seg (pcfgs (F := F)) adm (pdats m) () defs₀ 𝒱₀ Lz lvz) :=
  [ .region (reg0 m),
    .host (hseg hostOps1 hostOps1_sub hostOps1_fresh (Wb m)),
    .region (reg1 m) ]

theorem main_run (c : Dev nD) : main (F := F) c = Pipeline.Seg.run (items m) := (main_chain c).trans (by chain_rfl)

set_option backward.isDefEq.respectTransparency.types false in
/-- From any memory with zero counters, every weakly fair execution of the program terminates, nothing faulting, and
    every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) adm (pdats m) () cellOf_inj emb₁ defs₀ 𝒱₀ Lz lvz m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ Rr c)) (Tₙ := Tn m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c => h c)

/-- The frame: the program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Wd_main_arg0 m c),
     (h c _ (mem_uc main_arg1 (by decide))).trans (Wd_main_arg1 m c),
     (h c _ (mem_uc main_arg2 (by decide))).trans (Wd_main_arg2 m c),
     (h c _ (mem_uc main_arg3 (by decide))).trans (Wd_main_arg3 m c)⟩) (run_main m ρ)

/-- The same run with the result array named: it ends at what the second region's write-backs leave. -/
theorem run_result : θ_run defs (onTc (τ := τ) (main (F := F))) ⟨m, fun _ => 0, ρ⟩ (fun r => ∀ c : Dev nD,
      r.2.mem ((c.tc : Thread nD τ).loc main_v2) = (dat1 (Vc m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (Wd_main_v2 m c),
     (h c _ (mem_uc main_arg0 (by decide))).trans (Wd_main_arg0 m c),
     (h c _ (mem_uc main_arg1 (by decide))).trans (Wd_main_arg1 m c),
     (h c _ (mem_uc main_arg2 (by decide))).trans (Wd_main_arg2 m c),
     (h c _ (mem_uc main_arg3 (by decide))).trans (Wd_main_arg3 m c)⟩) (run_main m ρ)

end Cert.KernelIdeal.Frame

end
-- ==== Proof.Ideal.Pieces.lean ====
/-
  What the bodies' stores amount to, in the programs' own arithmetic.

  First region: the output band is the narrowed product of the two input bands.
  Second region: at slab 0 the accumulator ends at (zero + product of the slab's blocks); at every later slab at
  (what it held + product of the slab's blocks); and at slab 15 the output block is that accumulator plus the bias row.
  Each statement reads the stores the run found through the whole-buffer rectangle, through which a load returns the
  contents and the last store leaves its value.
-/
import proofs.«167494_j73718818668813_2_alg».proof.Proof.Ideal.R1
import proofs.«167494_j73718818668813_2_alg».proof.Proof.Ideal.R0
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- First region: the band stored is the narrowed product of the two bands loaded. -/
theorem out0_2_eq (x0 x1 : Vec F S256x4096 .f32) : out0_2 (F := F) x0 x1 = k0_pay1 x0 x1 := by
  unfold out0_2
  rw [View.canon_unit_zero hz2]
  simp only [View.ld_unit_zero (S := S256x4096) hz2]

/-- Slab 0: the accumulator is cleared, then the slab's product is added to the cleared accumulator. -/
theorem sout1_A_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) :
    sout1_A_0 (F := F) c i arg3 harg3 arg4 harg4 arg5 harg5 arg6 harg6 arg7 harg7 hc0 hc1 x0 x1 x2 = k1_pay2 x0 x1 (k1_pay1 (F := F)) := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_run_names
  rw [View.canon_cons_unit_zero hz2, View.readCov_unit_zero (S := S1024x2048) _ hz2]
  simp only [View.readAt_eq_ld, harg3.read_unread, harg4.read_unread, View.ld_unit_zero (S := S1024x256) hz2, View.ld_unit_zero (S := S2048x256) hz2]

/-- Slabs 1 to 14: the slab's product is added to what the accumulator held. -/
theorem sout1_B_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) :
    sout1_B_0 (F := F) c i arg3 harg3 arg4 harg4 arg5 harg5 arg6 harg6 arg7 harg7 hc0 hc1 x0 x1 x2 xs0 = k1_pay2 x0 x1 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  try sl_unfold_run_names
  rw [View.canon_unit_zero hz2]
  simp only [View.readAt_eq_ld, harg3.read_unread, harg4.read_unread, harg7.read_unread, View.ld_unit_zero (S := S1024x256) hz2, View.ld_unit_zero (S := S2048x256) hz2, View.ld_unit_zero (S := S1024x2048) hz2]

/-- Slab 15: the same for the accumulator. -/
theorem sout1_C_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    sout1_C_0 (F := F) c i arg3 harg3 arg4 harg4 arg5 harg5 arg6 harg6 arg7 harg7 hc0 hc1 x0 x1 x2 xs0 = k1_pay2 x0 x1 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  try sl_unfold_run_names
  rw [View.canon_unit_zero hz2]
  simp only [View.readAt_eq_ld, harg3.read_unread, harg4.read_unread, harg7.read_unread, View.ld_unit_zero (S := S1024x256) hz2, View.ld_unit_zero (S := S2048x256) hz2, View.ld_unit_zero (S := S1024x2048) hz2]

/-- Slab 15: the output block is the accumulator just written, plus the bias row on every row. -/
theorem out1_C_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    out1_C_3 (F := F) c i arg3 harg3 arg4 harg4 arg5 harg5 arg6 harg6 arg7 harg7 hc0 hc1 x0 x1 x2 xs0 = k1_pay3 x2 (k1_pay2 x0 x1 xs0) := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  try sl_unfold_run_names
  rw [View.canon_unit_zero hz2, View.readCov_unit_zero (S := S1024x2048) _ hz2]
  simp only [View.readAt_eq_ld, harg3.read_unread, harg4.read_unread, harg5.read_unread, harg7.read_unread, View.ld_unit_zero (S := S1024x256) hz2, View.ld_unit_zero (S := S2048x256) hz2, View.ld_unit_zero (S := S1024x2048) hz2, View.ld_unit_zero (S := S1x2048) hz2]

end Cert.KernelIdeal.Frame

end
-- ==== Proof.Ideal.Weights.lean ====
/-
  The first region's result array: the masked weights.

  At band `t` the region writes back rows 256 t to 256 t + 255, all 4096 columns, and what it writes is the entrywise
  narrowed product of the same rows of the weights and of the mask. The sixteen bands tile the array, so after the
  region the whole array is the entrywise narrowed product of the weights and the mask.
-/
import proofs.«167494_j73718818668813_2_alg».proof.Proof.Ideal.R0
import proofs.«167494_j73718818668813_2_alg».proof.Proof.Ideal.Pieces
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The entrywise narrowed product of a weight array and a mask array. -/
abbrev masked (w mk : S4096x4096.Idx → Elt F .f32) : S4096x4096.Idx → Elt F .bf16 :=
  fun i => FloatOps.truncf .bf16 bitsLt_bf16_f32 (FloatOps.mulf (w i) (mk i))

/-- The body's stored value is that operation of its two loaded bands. -/
theorem band_eq (x0 x1 : Vec F S256x4096 .f32) : k0_pay1 x0 x1 = truncf .bf16 (mulf x0 x1) bitsLt_bf16_f32 := rfl

/-- The three windows move together: at band `t` each is at block row `t`, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What band `t` writes back is band `t` of the masked weights. -/
theorem flushed0_eq (c : Dev nD) (t : Fin cfg0.N) :
    (dat0 V c).flushed 2 t = ((cfg0.win 2).blk t).view.read (Elt F) (masked (V c main_arg1) (V c main_arg2)) := by
  show (cfg0.win 2).cut (grid0.coords t) ((dat0 V c).after 2 t) = _
  rw [after0_2, out0_2_eq, band_eq]
  obtain ⟨e0, e1, e2, e3, e4, e5⟩ := idx_facts0 t
  funext j
  show FloatOps.truncf .bf16 bitsLt_bf16_f32 (FloatOps.mulf (V c main_arg1 (((cfg0.win 0).blk t).view.emb j)) (V c main_arg2 (((cfg0.win 1).blk t).view.emb j)))
    = FloatOps.truncf .bf16 bitsLt_bf16_f32 (FloatOps.mulf (V c main_arg1 (((cfg0.win 2).blk t).view.emb j)) (V c main_arg2 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  rw [h0, h1]

/-- An index of the array is in band `t`'s block iff each coordinate is in the block's range on its axis. -/
theorem mem_blk0 (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Every index of the array lies in the band its row falls in. -/
theorem cover0 (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 16 := N_0
  have ht : (i 0).val / 256 < cfg0.N := by rw [hN]; omega
  refine ⟨⟨(i 0).val / 256, ht⟩, flush0_2 _, ?_⟩
  rw [mem_blk0]
  obtain ⟨-, -, -, -, e4, e5⟩ := idx_facts0 ⟨(i 0).val / 256, ht⟩
  intro a
  match a with
  | ⟨0, _⟩ =>
    show win0_2.index ⟨(i 0).val / 256, ht⟩ (0 : Fin 2) * 256 ≤ (i 0).val ∧ (i 0).val < win0_2.index ⟨(i 0).val / 256, ht⟩ (0 : Fin 2) * 256 + 256
    rw [e4]; show (i 0).val / 256 * 256 ≤ (i 0).val ∧ (i 0).val < (i 0).val / 256 * 256 + 256; omega
  | ⟨1, _⟩ =>
    show win0_2.index ⟨(i 0).val / 256, ht⟩ (1 : Fin 2) * 4096 ≤ (i 1).val ∧ (i 1).val < win0_2.index ⟨(i 0).val / 256, ht⟩ (1 : Fin 2) * 4096 + 4096
    rw [e5]; omega

/-- After the region the result array is the masked weights, whole. -/
theorem final0 (c : Dev nD) : (dat0 V c).arrAt 2 cfg0.N = masked (V c main_arg1) (V c main_arg2) :=
  (dat0 V c).arrAt_eq_of_cover 2 (masked (V c main_arg1) (V c main_arg2)) (fun t _ => flushed0_eq V c t) cover0

end Cert.KernelIdeal.Val

end
-- ==== Proof.LibDotNT.lean ====
/-
  The product of an `[M, K]` matrix with the TRANSPOSE of an `[N, K]` matrix — a `tpu.matmul` that contracts the last
  axis of both operands, no batch axis — into the zero accumulator, read at `(p, j)` at the ideal values: the sum over
  the shared axis of the products of row `p` of the left operand with row `j` of the right. (A similarity matrix
  `q kᵀ` of two blocks of row vectors is this product.)
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDotNT

open Idealize.ShloMosaic Idealize.ShloMosaic.ValueIdx

/-- Rows against rows: `(A Bᵀ)(p, j) = ∑ k, A (p, k) * B (j, k)`. -/
theorem matmulNT_apply {M K N : ℕ} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision)
    (lhs : FVec Ideal ⟨2, ![M, K]⟩ φ₁) (rhs : FVec Ideal ⟨2, ![N, K]⟩ φ₂) (p : Fin M) (j : Fin N) :
    matmul D prec lhs rhs (constant ⟨2, ![M, N]⟩ .f32 0x00000000#32) (ix2 p j)
      = ∑ k : Fin K, lhs (ix2 p k) * rhs (ix2 j k) := by
  obtain ⟨lc, rc, ln, rn, lb, rb, wf⟩ := D
  dsimp only at hlc hrc hln hrn hlb hrb
  subst hlc hrc hln hrn hlb hrb
  set D : DotDims ⟨2, ![M, K]⟩ ⟨2, ![N, K]⟩ ⟨2, ![M, N]⟩ := ⟨[1], [1], [0], [0], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 j k := funext fun a => Fin.ext (by
    match a with
    | ⟨0, _⟩ =>
      show (D.rhsIdx (ix2 p j) _ 0).val = j.val
      unfold DotDims.rhsIdx
      rw [dif_neg (show ¬(0 : Fin (⟨2, ![N, K]⟩ : Shape).rank) ∈ D.rhsBatch from List.not_mem_nil),
        dif_pos (show (0 : Fin (⟨2, ![N, K]⟩ : Shape).rank) ∈ D.rhsNonContracting from List.mem_singleton.mpr rfl)]
      rfl
    | ⟨1, _⟩ => exact (D.rhsIdx_val_of_single rfl (ix2 p j) _).trans hk)
  rw [el, er]

end Cert.LibDotNT

end
-- ==== Proof.Ideal.Arith.lean ====
/-
  The bodies' arithmetic at one entry, over the extended reals.

  At the ideal values a change of float format is the identity, so: the first region's stored band is the entrywise
  product of the two bands; the cleared accumulator is zero; one accumulation step adds to entry (r, q) the sum over
  the slab's 256 features of data-block[r, k] * weight-block[q, k] (the matrix unit contracts the last axis of both
  operands, into a zero accumulator); and the emitted block adds bias-row[0, q] to entry (r, q).
-/
import proofs.«167494_j73718818668813_2_alg».proof.Proof.Gen.KernelIdeal.Skeleton
import proofs.«167494_j73718818668813_2_alg».proof.Proof.LibDotNT
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-- The masked-weight band at an entry: the product of the weight and mask entries. -/
theorem band_apply (x0 x1 : Vec Ideal S256x4096 .f32) (r : Fin 256) (q : Fin 4096) :
    k0_pay1 (F := Ideal) x0 x1 (ix2 r q) = x0 (ix2 r q) * x1 (ix2 r q) := rfl

/-- The cleared accumulator is zero everywhere. -/
theorem clear_apply (j : S1024x2048.Idx) : k1_pay1 (F := Ideal) j = 0 := by
  simp only [k1_pay1, shapeCast_self, broadcast_apply]
  exact Ideal.ofBits_zero_f32

/-- One accumulation step at an entry: what the accumulator held plus the row-by-row product over the slab. -/
theorem step_apply (x0 : Vec Ideal S1024x256 .f32) (x1 : Vec Ideal S2048x256 .bf16) (acc : Vec Ideal S1024x2048 .f32)
    (r : Fin 1024) (q : Fin 2048) :
    k1_pay2 (F := Ideal) x0 x1 acc (ix2 r q) = acc (ix2 r q) + ∑ k : Fin 256, x0 (ix2 r k) * x1 (ix2 q k) := by
  simp only [k1_pay2, shapeCast_self, addf_apply]
  refine congrArg (acc (ix2 r q) + ·) ?_
  exact Cert.LibDotNT.matmulNT_apply dot_S1024x256_S2048x256_S1024x2048_1_1_0_0_n_n rfl rfl rfl rfl rfl rfl none _ _ r q

/-- The emitted block at an entry: the accumulator plus the bias row's entry in that column. -/
theorem emit_apply (x2 : Vec Ideal S1x2048 .f32) (acc : Vec Ideal S1024x2048 .f32) (r : Fin 1024) (q : Fin 2048) :
    k1_pay3 (F := Ideal) x2 acc (ix2 r q) = acc (ix2 r q) + x2 (ix2 (0 : Fin 1) q) := by
  simp only [k1_pay3, shapeCast_self, addf_apply]
  refine congrArg (acc (ix2 r q) + ·) ?_
  exact broadcastTo_1b_ab_apply x2 _ r q

end Cert.KernelIdeal.Val

end
-- ==== Proof.LibTileRange.lean ====
/-
  A finite range cut into equal consecutive tiles.

  A sum over the positions `0 ≤ e < N`, with `N = n * b`, is the sum over the `n` tiles of the sums over the `b`
  offsets inside a tile, the position of offset `d` of tile `k` being `b * k + d`. (A contraction over a long axis
  computed tile by tile is this regrouping.)
-/
import Mathlib.Algebra.BigOperators.Fin
import Mathlib.Algebra.BigOperators.Group.Finset.Basic
import Mathlib.Logic.Equiv.Fin.Basic

open scoped BigOperators

namespace Cert.LibTileRange

/-- Offset `d` of tile `k` lies inside the range of `n` tiles of width `b`. -/
theorem tile_lt {n b : ℕ} (k : Fin n) (d : Fin b) : b * k.val + d.val < n * b :=
  calc b * k.val + d.val < b * k.val + b := Nat.add_lt_add_left d.isLt _
    _ = b * (k.val + 1) := (Nat.mul_succ _ _).symm
    _ ≤ b * n := Nat.mul_le_mul_left _ k.isLt
    _ = n * b := Nat.mul_comm _ _

/-- The position of offset `d` of tile `k`, as an index of the whole range. -/
def tile {n b : ℕ} (N : ℕ) (hN : n * b = N) (k : Fin n) (d : Fin b) : Fin N :=
  ⟨b * k.val + d.val, hN ▸ tile_lt k d⟩

@[simp] theorem tile_val {n b : ℕ} (N : ℕ) (hN : n * b = N) (k : Fin n) (d : Fin b) :
    (tile N hN k d).val = b * k.val + d.val := rfl

/-- A sum over the whole range is the sum, tile by tile, of the sums over the offsets. -/
theorem sum_fin_tiles {M : Type*} [AddCommMonoid M] (n b N : ℕ) (hN : n * b = N) (f : Fin N → M) :
    ∑ e : Fin N, f e = ∑ k : Fin n, ∑ d : Fin b, f (tile N hN k d) := by
  subst hN
  rw [← (finProdFinEquiv (m := n) (n := b)).sum_comp, Fintype.sum_prod_type]
  refine Finset.sum_congr rfl fun k _ => Finset.sum_congr rfl fun d _ => ?_
  refine congrArg f (Fin.ext ?_)
  rw [finProdFinEquiv_apply_val, tile_val, Nat.add_comm]

end Cert.LibTileRange
-- ==== Proof.Ideal.Product.lean ====
/-
  The second region's result array: the matrix product plus the bias.

  Point t = ((a * 2) + b) * 16 + s works on token block a (rows 1024 a ...), feature block b (columns 2048 b ...) and
  slab s (input features 256 s ...). Its data block is data[1024 a + r, 256 s + k], its weight block is
  W[2048 b + q, 256 s + k], its bias block is the bias row at column 2048 b + q.
  The accumulator after point t is the fold over the run of points from 16 (t / 16): zero plus, for every slab so far,
  the slab's row-by-row product. At slab 15 the block written back is that fold over all sixteen slabs plus the bias
  entry; the sixteen sums over 256 features are one sum over the 4096 features. The 8 x 2 written blocks tile the
  result array, so after the region it holds, at (T, O), sum over k of data[T, k] * W[O, k], plus the bias row at O.
-/
import proofs.«167494_j73718818668813_2_alg».proof.Proof.Ideal.R1
import proofs.«167494_j73718818668813_2_alg».proof.Proof.Ideal.Pieces
import proofs.«167494_j73718818668813_2_alg».proof.Proof.Ideal.Arith
import proofs.«167494_j73718818668813_2_alg».proof.Proof.LibTileRange
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Where each window is at a point -/

theorem idx_facts1 : ∀ t : Fin cfg1.N,
    win1_0.index t (0 : Fin 2) = t.val / 32 ∧ win1_0.index t (1 : Fin 2) = t.val % 16
    ∧ win1_1.index t (0 : Fin 2) = t.val / 16 % 2 ∧ win1_1.index t (1 : Fin 2) = t.val % 16
    ∧ win1_2.index t (0 : Fin 2) = 0 ∧ win1_2.index t (1 : Fin 2) = t.val / 16 % 2
    ∧ win1_3.index t (0 : Fin 2) = t.val / 32 ∧ win1_3.index t (1 : Fin 2) = t.val / 16 % 2 :=
  (by decide +kernel : ∀ t : Fin grid1.N, _)

/-- The three input blocks at a point, at their literal shapes. -/
abbrev dataB (c : Dev nD) (t : Fin cfg1.N) : Vec Ideal S1024x256 .f32 := iblk1 V c 0 t
abbrev weightB (c : Dev nD) (t : Fin cfg1.N) : Vec Ideal S2048x256 .bf16 := iblk1 V c 1 t
abbrev biasB (c : Dev nD) (t : Fin cfg1.N) : Vec Ideal S1x2048 .f32 := iblk1 V c 2 t

/-- The data block at point `t`: rows from 1024 (t / 32), columns from 256 (t mod 16). -/
theorem data_blk (c : Dev nD) (t : Fin cfg1.N) (r : Fin 1024) (k : Fin 256) (i : S8192x4096.Idx)
    (h0 : (i 0).val = t.val / 32 * 1024 + r.val) (h1 : (i 1).val = t.val % 16 * 256 + k.val) :
    dataB V c t (ix2 r k) = (V c main_arg0 : S8192x4096.Idx → Elt Ideal .f32) i := by
  obtain ⟨e0, e1, -⟩ := idx_facts1 t
  unfold dataB iblk1
  rw [View.read_apply]
  show V c main_arg0 _ = V c main_arg0 _
  congr 1
  funext a
  apply Fin.ext
  match a with
  | ⟨0, _⟩ => show win1_0.index t (0 : Fin 2) * 1024 + 1 * r.val = (i 0).val; rw [e0, h0]; omega
  | ⟨1, _⟩ => show win1_0.index t (1 : Fin 2) * 256 + 1 * k.val = (i 1).val; rw [e1, h1]; omega

/-- The weight block at point `t`: rows from 2048 ((t / 16) mod 2), columns from 256 (t mod 16). -/
theorem weight_blk (c : Dev nD) (t : Fin cfg1.N) (q : Fin 2048) (k : Fin 256) (i : S4096x4096.Idx)
    (h0 : (i 0).val = t.val / 16 % 2 * 2048 + q.val) (h1 : (i 1).val = t.val % 16 * 256 + k.val) :
    weightB V c t (ix2 q k) = (V c main_v0 : S4096x4096.Idx → Elt Ideal .bf16) i := by
  obtain ⟨-, -, e2, e3, -⟩ := idx_facts1 t
  unfold weightB iblk1
  rw [View.read_apply]
  show V c main_v0 _ = V c main_v0 _
  congr 1
  funext a
  apply Fin.ext
  match a with
  | ⟨0, _⟩ => show win1_1.index t (0 : Fin 2) * 2048 + 1 * q.val = (i 0).val; rw [e2, h0]; omega
  | ⟨1, _⟩ => show win1_1.index t (1 : Fin 2) * 256 + 1 * k.val = (i 1).val; rw [e3, h1]; omega

/-- The bias block at point `t`: the one row, columns from 2048 ((t / 16) mod 2). -/
theorem bias_blk (c : Dev nD) (t : Fin cfg1.N) (q : Fin 2048) (i : S1x4096.Idx)
    (h0 : (i 0).val = 0) (h1 : (i 1).val = t.val / 16 % 2 * 2048 + q.val) :
    biasB V c t (ix2 (0 : Fin 1) q) = (V c main_v1 : S1x4096.Idx → Elt Ideal .f32) i := by
  obtain ⟨-, -, -, -, e4, e5, -⟩ := idx_facts1 t
  unfold biasB iblk1
  rw [View.read_apply]
  show V c main_v1 _ = V c main_v1 _
  congr 1
  funext a
  apply Fin.ext
  match a with
  | ⟨0, _⟩ => show win1_2.index t (0 : Fin 2) * 1 + 1 * (0 : Fin 1).val = (i 0).val; rw [e4, h0]; rfl
  | ⟨1, _⟩ => show win1_2.index t (1 : Fin 2) * 2048 + 1 * q.val = (i 1).val; rw [e5, h1]; omega

/-! ## The accumulator as a fold -/

/-- Point `n`'s contribution to entry (r, q) of the accumulator: its row-by-row product (zero past the grid). -/
def addendAt (c : Dev nD) (n : ℕ) (r : Fin 1024) (q : Fin 2048) : EReal :=
  if h : n < cfg1.N then ∑ k : Fin 256, dataB V c ⟨n, h⟩ (ix2 r k) * weightB V c ⟨n, h⟩ (ix2 q k) else 0
def addend (c : Dev nD) (n : ℕ) : S1024x2048.Idx → EReal := fun j => addendAt V c n (j 0) (j 1)

/-- The accumulator after point `n`; what a point of slab 0 leaves in it; what a later point makes of it. -/
abbrev accF (c : Dev nD) : (n : ℕ) → n < cfg1.N → Vec Ideal S1024x2048 .f32 := fun n h => (outsAt1 V c n h).2
abbrev resetF (c : Dev nD) : (n : ℕ) → n < cfg1.N → Vec Ideal S1024x2048 .f32 :=
  fun n h => k1_pay2 (F := Ideal) (iblk1 V c 0 ⟨n, h⟩) (iblk1 V c 1 ⟨n, h⟩) (k1_pay1 (F := Ideal))
abbrev stepF (c : Dev nD) : (n : ℕ) → n < cfg1.N → Vec Ideal S1024x2048 .f32 → Vec Ideal S1024x2048 .f32 :=
  fun n h acc => k1_pay2 (F := Ideal) (iblk1 V c 0 ⟨n, h⟩) (iblk1 V c 1 ⟨n, h⟩) acc

theorem acc_reset' (c : Dev nD) (t : Fin cfg1.N) (hn : t.val % 16 = 0) :
    (outsAt1 V c t.val t.isLt).2 = k1_pay2 (F := Ideal) (iblk1 V c 0 t) (iblk1 V c 1 t) (k1_pay1 (F := Ideal)) := by
  have h15 : ¬t.val % 16 = 15 := by omega
  have eB : (outsAt1 V c t.val t.isLt).2 = sout1_A_0 (F := Ideal) c (grid1.coords t) (ms1_0 t) (hs1_0 t) (ms1_1 t) (hs1_1 t) (ms1_2 t) (hs1_2 t) (ms1_3 t) (hs1_3 t) scM1_0 (Memref.isWhole_whole _) ((hcond1_0 t).mpr hn) (fun hh => h15 ((hcond1_1 t).mp hh)) (iblk1 V c 0 t) (iblk1 V c 1 t) (iblk1 V c 2 t) := by
    rw [outsAt1_A V c t hn h15]
  exact eB.trans (sout1_A_eq (F := Ideal) c (grid1.coords t) (ms1_0 t) (hs1_0 t) (ms1_1 t) (hs1_1 t) (ms1_2 t) (hs1_2 t) (ms1_3 t) (hs1_3 t) scM1_0 (Memref.isWhole_whole _) ((hcond1_0 t).mpr hn) (fun hh => h15 ((hcond1_1 t).mp hh)) (iblk1 V c 0 t) (iblk1 V c 1 t) (iblk1 V c 2 t))

theorem acc_step' (c : Dev nD) (t : Fin cfg1.N) (hn : ¬t.val % 16 = 0) :
    (outsAt1 V c t.val t.isLt).2 = k1_pay2 (F := Ideal) (iblk1 V c 0 t) (iblk1 V c 1 t) (outsAt1 V c (t.val - 1) (Nat.lt_of_le_of_lt (Nat.sub_le _ _) t.isLt)).2 := by
  by_cases h1 : t.val % 16 = 15
  · have eB : (outsAt1 V c t.val t.isLt).2 = sout1_C_0 (F := Ideal) c (grid1.coords t) (ms1_0 t) (hs1_0 t) (ms1_1 t) (hs1_1 t) (ms1_2 t) (hs1_2 t) (ms1_3 t) (hs1_3 t) scM1_0 (Memref.isWhole_whole _) (fun hh => hn ((hcond1_0 t).mp hh)) ((hcond1_1 t).mpr h1) (iblk1 V c 0 t) (iblk1 V c 1 t) (iblk1 V c 2 t) (outsAt1 V c (t.val - 1) (Nat.lt_of_le_of_lt (Nat.sub_le _ _) t.isLt)).2 := by
      rw [outsAt1_C V c t hn h1]
    exact eB.trans (sout1_C_eq (F := Ideal) c (grid1.coords t) (ms1_0 t) (hs1_0 t) (ms1_1 t) (hs1_1 t) (ms1_2 t) (hs1_2 t) (ms1_3 t) (hs1_3 t) scM1_0 (Memref.isWhole_whole _) (fun hh => hn ((hcond1_0 t).mp hh)) ((hcond1_1 t).mpr h1) (iblk1 V c 0 t) (iblk1 V c 1 t) (iblk1 V c 2 t) (outsAt1 V c (t.val - 1) (Nat.lt_of_le_of_lt (Nat.sub_le _ _) t.isLt)).2)
  · have eB : (outsAt1 V c t.val t.isLt).2 = sout1_B_0 (F := Ideal) c (grid1.coords t) (ms1_0 t) (hs1_0 t) (ms1_1 t) (hs1_1 t) (ms1_2 t) (hs1_2 t) (ms1_3 t) (hs1_3 t) scM1_0 (Memref.isWhole_whole _) (fun hh => hn ((hcond1_0 t).mp hh)) (fun hh => h1 ((hcond1_1 t).mp hh)) (iblk1 V c 0 t) (iblk1 V c 1 t) (iblk1 V c 2 t) (outsAt1 V c (t.val - 1) (Nat.lt_of_le_of_lt (Nat.sub_le _ _) t.isLt)).2 := by
      rw [outsAt1_B V c t hn h1]
    exact eB.trans (sout1_B_eq (F := Ideal) c (grid1.coords t) (ms1_0 t) (hs1_0 t) (ms1_1 t) (hs1_1 t) (ms1_2 t) (hs1_2 t) (ms1_3 t) (hs1_3 t) scM1_0 (Memref.isWhole_whole _) (fun hh => hn ((hcond1_0 t).mp hh)) (fun hh => h1 ((hcond1_1 t).mp hh)) (iblk1 V c 0 t) (iblk1 V c 1 t) (iblk1 V c 2 t) (outsAt1 V c (t.val - 1) (Nat.lt_of_le_of_lt (Nat.sub_le _ _) t.isLt)).2)

/-- At slab 15 the output block is the accumulator the point leaves, plus the bias row. -/
theorem emit' (c : Dev nD) (t : Fin cfg1.N) (h1 : t.val % 16 = 15) :
    (outsAt1 V c t.val t.isLt).1 = k1_pay3 (F := Ideal) (iblk1 V c 2 t) (outsAt1 V c t.val t.isLt).2 := by
  have hn : ¬t.val % 16 = 0 := by omega
  have eB : (outsAt1 V c t.val t.isLt).1 = out1_C_3 (F := Ideal) c (grid1.coords t) (ms1_0 t) (hs1_0 t) (ms1_1 t) (hs1_1 t) (ms1_2 t) (hs1_2 t) (ms1_3 t) (hs1_3 t) scM1_0 (Memref.isWhole_whole _) (fun hh => hn ((hcond1_0 t).mp hh)) ((hcond1_1 t).mpr h1) (iblk1 V c 0 t) (iblk1 V c 1 t) (iblk1 V c 2 t) (outsAt1 V c (t.val - 1) (Nat.lt_of_le_of_lt (Nat.sub_le _ _) t.isLt)).2 := by
    rw [outsAt1_C V c t hn h1]
  rw [acc_step' V c t hn]
  exact eB.trans (out1_C_eq (F := Ideal) c (grid1.coords t) (ms1_0 t) (hs1_0 t) (ms1_1 t) (hs1_1 t) (ms1_2 t) (hs1_2 t) (ms1_3 t) (hs1_3 t) scM1_0 (Memref.isWhole_whole _) (fun hh => hn ((hcond1_0 t).mp hh)) ((hcond1_1 t).mpr h1) (iblk1 V c 0 t) (iblk1 V c 1 t) (iblk1 V c 2 t) (outsAt1 V c (t.val - 1) (Nat.lt_of_le_of_lt (Nat.sub_le _ _) t.isLt)).2)

theorem acc_reset (c : Dev nD) (n : ℕ) (h : n < cfg1.N) (hn : n % 16 = 0) : accF V c n h = resetF V c n h :=
  acc_reset' V c ⟨n, h⟩ hn

theorem acc_step (c : Dev nD) (n : ℕ) (h : n + 1 < cfg1.N) (hn : ¬(n + 1) % 16 = 0) :
    accF V c (n + 1) h = stepF V c (n + 1) h (accF V c n (Nat.lt_of_succ_lt h)) :=
  acc_step' V c ⟨n + 1, h⟩ hn

/-- The accumulator after point `t` is the fold over the run of points from 16 (t / 16). -/
theorem acc_fold (c : Dev nD) (t : ℕ) (ht : t < cfg1.N) (h' : 16 * (t / 16) + t % 16 < cfg1.N) :
    accF V c t ht = Pipeline.accAt (resetF V c) (stepF V c) (16 * (t / 16)) (t % 16) h' :=
  Pipeline.eq_accAt_of_mod (accF V c) 16 (resetF V c) (stepF V c) (acc_reset V c) (acc_step V c) (by decide) t ht h'

/-- The fold at an entry: zero plus the contributions of the run's points so far. -/
theorem fold_apply (c : Dev nD) (b j : ℕ) (hj : j ≤ 15) (h : b + j < cfg1.N) (i : S1024x2048.Idx) :
    Pipeline.accAt (resetF V c) (stepF V c) b j h i
      = k1_pay1 (F := Ideal) i + ∑ s ∈ Finset.range (j + 1), addend V c (b + s) i := by
  refine Pipeline.accAt_add_apply (resetF V c) (stepF V c) (k1_pay1 (F := Ideal)) (addend V c) b 15 ?_ ?_ j hj h i
  · intro hb i
    obtain ⟨r, q, rfl⟩ : ∃ (r : Fin 1024) (q : Fin 2048), i = ix2 r q := ⟨i 0, i 1, eq_ix2 i⟩
    refine (step_apply _ _ _ r q).trans ?_
    show _ = _ + addendAt V c b r q
    unfold addendAt
    rw [dif_pos hb]
  · intro n hn acc i _ _
    obtain ⟨r, q, rfl⟩ : ∃ (r : Fin 1024) (q : Fin 2048), i = ix2 r q := ⟨i 0, i 1, eq_ix2 i⟩
    refine (step_apply _ _ _ r q).trans ?_
    show _ = _ + addendAt V c n r q
    unfold addendAt
    rw [dif_pos hn]

/-! ## What a point of slab 15 writes back -/

/-- The emitted block at an entry: the sixteen slabs' products, plus the bias entry of the column. -/
theorem emitted (c : Dev nD) (t : Fin cfg1.N) (h15 : t.val % 16 = 15) (r : Fin 1024) (q : Fin 2048) :
    (outsAt1 V c t.val t.isLt).1 (ix2 r q)
      = (∑ s ∈ Finset.range 16, addend V c (16 * (t.val / 16) + s) (ix2 r q)) + biasB V c t (ix2 (0 : Fin 1) q) := by
  have hN : cfg1.N = 256 := N_1
  have h0 : ¬t.val % 16 = 0 := by omega
  have e1 : (outsAt1 V c t.val t.isLt).1 = k1_pay3 (F := Ideal) (iblk1 V c 2 t) (accF V c t.val t.isLt) := emit' V c t h15
  have h' : 16 * (t.val / 16) + t.val % 16 < cfg1.N := by have := t.isLt; omega
  rw [e1, emit_apply, acc_fold V c t.val t.isLt h', fold_apply V c _ _ (by omega) h' (ix2 r q), clear_apply, zero_add, h15]

/-! ## The result array -/

/-- Entry (T, O) of the product of an [8192, 4096] array with the transpose of a [4096, 4096] array, plus a row. -/
def prodAt (D : S8192x4096.Idx → EReal) (Wm : S4096x4096.Idx → EReal) (Br : S1x4096.Idx → EReal) (T : Fin 8192) (O : Fin 4096) : EReal :=
  (∑ k : Fin 4096, D (ix2 T k) * Wm (ix2 O k)) + Br (ix2 (0 : Fin 1) O)
def prod (D : S8192x4096.Idx → EReal) (Wm : S4096x4096.Idx → EReal) (Br : S1x4096.Idx → EReal) : S8192x4096.Idx → EReal :=
  fun i => prodAt D Wm Br (i 0) (i 1)

/-- What a point of slab 15 writes back is its block of `prod` of the three arrays as the region finds them. -/
theorem flushed1_eq (c : Dev nD) (t : Fin cfg1.N) (hf : (cfg1.win 3).flush t = true) :
    (dat1 V c).flushed 3 t = ((cfg1.win 3).blk t).view.read (Elt Ideal) (prod (V c main_arg0) (V c main_v0) (V c main_v1)) := by
  have h15 : t.val % 16 = 15 := (flush1_3 t).mp hf
  have hN : cfg1.N = 256 := N_1
  have htl : t.val < 256 := lt_of_lt_of_eq t.isLt hN
  obtain ⟨-, -, -, -, -, -, e6, e7⟩ := idx_facts1 t
  show (cfg1.win 3).cut (grid1.coords t) ((dat1 V c).after 3 t) = _
  rw [after1_3]
  funext y
  obtain ⟨r, q, rfl⟩ : ∃ (r : Fin 1024) (q : Fin 2048), y = ix2 r q := ⟨y 0, y 1, eq_ix2 y⟩
  have hr := r.isLt
  have hq := q.isLt
  let T : Fin 8192 := ⟨t.val / 32 * 1024 + r.val, by omega⟩
  let O : Fin 4096 := ⟨t.val / 16 % 2 * 2048 + q.val, by omega⟩
  have hemb : ((cfg1.win 3).blk t).view.emb (ix2 r q) = (ix2 T O : S8192x4096.Idx) := by
    funext a
    apply Fin.ext
    match a with
    | ⟨0, _⟩ => show win1_3.index t (0 : Fin 2) * 1024 + 1 * r.val = t.val / 32 * 1024 + r.val; rw [e6]; omega
    | ⟨1, _⟩ => show win1_3.index t (1 : Fin 2) * 2048 + 1 * q.val = t.val / 16 % 2 * 2048 + q.val; rw [e7]; omega
  show (outsAt1 V c t.val t.isLt).1 (ix2 r q) = prod (V c main_arg0) (V c main_v0) (V c main_v1) (((cfg1.win 3).blk t).view.emb (ix2 r q))
  rw [hemb, emitted V c t h15 r q]
  show _ = prodAt (V c main_arg0) (V c main_v0) (V c main_v1) T O
  unfold prodAt
  rw [bias_blk V c t q (ix2 (0 : Fin 1) O) rfl rfl]
  refine congrArg (· + (V c main_v1 : S1x4096.Idx → Elt Ideal .f32) (ix2 (0 : Fin 1) O)) ?_
  rw [Cert.LibTileRange.sum_fin_tiles 16 256 4096 rfl, Finset.sum_range]
  refine Finset.sum_congr rfl fun s _ => ?_
  have hs := s.isLt
  have hn : 16 * (t.val / 16) + s.val < cfg1.N := lt_of_lt_of_eq (by omega : 16 * (t.val / 16) + s.val < 256) hN.symm
  show addendAt V c (16 * (t.val / 16) + s.val) r q = _
  unfold addendAt
  rw [dif_pos hn]
  refine Finset.sum_congr rfl fun k _ => ?_
  have hk := k.isLt
  rw [data_blk V c ⟨16 * (t.val / 16) + s.val, hn⟩ r k (ix2 T (Cert.LibTileRange.tile 4096 rfl s k))
        (by show t.val / 32 * 1024 + r.val = (16 * (t.val / 16) + s.val) / 32 * 1024 + r.val; omega)
        (by show 256 * s.val + k.val = (16 * (t.val / 16) + s.val) % 16 * 256 + k.val; omega),
      weight_blk V c ⟨16 * (t.val / 16) + s.val, hn⟩ q k (ix2 O (Cert.LibTileRange.tile 4096 rfl s k))
        (by show t.val / 16 % 2 * 2048 + q.val = (16 * (t.val / 16) + s.val) / 16 % 2 * 2048 + q.val; omega)
        (by show 256 * s.val + k.val = (16 * (t.val / 16) + s.val) % 16 * 256 + k.val; omega)]

/-- An index of the array is in point `t`'s block iff each coordinate is in the block's range on its axis. -/
theorem mem_blk1 (t : Fin cfg1.N) (i : S8192x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v2).slice (win1_3.rect t)).set ↔ _
  rw [View.set_slice_whole, Rect.mem_set_unit]
  exact Iff.rfl

/-- Every index of the array lies in the block written back at slab 15 of its token block and feature block. -/
theorem cover1 (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 256 := N_1
  have ht : ((i 0).val / 1024 * 2 + (i 1).val / 2048) * 16 + 15 < cfg1.N := by rw [hN]; omega
  refine ⟨⟨((i 0).val / 1024 * 2 + (i 1).val / 2048) * 16 + 15, ht⟩, (flush1_3 _).mpr (by show (((i 0).val / 1024 * 2 + (i 1).val / 2048) * 16 + 15) % 16 = 15; omega), ?_⟩
  rw [mem_blk1]
  obtain ⟨-, -, -, -, -, -, e6, e7⟩ := idx_facts1 ⟨((i 0).val / 1024 * 2 + (i 1).val / 2048) * 16 + 15, ht⟩
  intro a
  match a with
  | ⟨0, _⟩ =>
    show win1_3.index ⟨((i 0).val / 1024 * 2 + (i 1).val / 2048) * 16 + 15, ht⟩ (0 : Fin 2) * 1024 ≤ (i 0).val ∧ (i 0).val < win1_3.index ⟨((i 0).val / 1024 * 2 + (i 1).val / 2048) * 16 + 15, ht⟩ (0 : Fin 2) * 1024 + 1024
    rw [e6]
    show (((i 0).val / 1024 * 2 + (i 1).val / 2048) * 16 + 15) / 32 * 1024 ≤ (i 0).val ∧ (i 0).val < (((i 0).val / 1024 * 2 + (i 1).val / 2048) * 16 + 15) / 32 * 1024 + 1024
    omega
  | ⟨1, _⟩ =>
    show win1_3.index ⟨((i 0).val / 1024 * 2 + (i 1).val / 2048) * 16 + 15, ht⟩ (1 : Fin 2) * 2048 ≤ (i 1).val ∧ (i 1).val < win1_3.index ⟨((i 0).val / 1024 * 2 + (i 1).val / 2048) * 16 + 15, ht⟩ (1 : Fin 2) * 2048 + 2048
    rw [e7]
    show (((i 0).val / 1024 * 2 + (i 1).val / 2048) * 16 + 15) / 16 % 2 * 2048 ≤ (i 1).val ∧ (i 1).val < (((i 0).val / 1024 * 2 + (i 1).val / 2048) * 16 + 15) / 16 % 2 * 2048 + 2048
    omega

/-- After the region the result array is `prod` of the three arrays the region found, whole. -/
theorem final1 (c : Dev nD) : (dat1 V c).arrAt 3 cfg1.N = prod (V c main_arg0) (V c main_v0) (V c main_v1) :=
  (dat1 V c).arrAt_eq_of_cover 3 (prod (V c main_arg0) (V c main_v0) (V c main_v1)) (fun t hf => flushed1_eq V c t hf) cover1

end Cert.KernelIdeal.Val

end
-- ==== Proof.Spec.lean ====
/-
  The function both programs compute: a linear layer whose weight matrix is masked entry by entry.
  For a token `t` and an output feature `o`,

      out[t, o] = (sum over k of data[t, k] * (weight[o, k] * mask[o, k])) + bias[o],

  over the extended reals, with the arrays read at indices built from their coordinates.
-/
import Idealize.ShloMosaic.PureOps.Ideal
import Idealize.ShloMosaic.Lib.ValueIdx

noncomputable section

open scoped BigOperators

namespace Cert.Spec

open Idealize.ShloMosaic Idealize.ShloMosaic.ValueIdx

/-- The shapes of the four arguments and of the result, as literals. -/
abbrev SData : Shape := ⟨2, ![8192, 4096]⟩
abbrev SWeight : Shape := ⟨2, ![4096, 4096]⟩
abbrev SBias : Shape := ⟨1, ![4096]⟩

/-- One entry of the masked linear layer, at explicit coordinates. -/
def g (data : SData.Idx → EReal) (weight mask : SWeight.Idx → EReal) (bias : SBias.Idx → EReal)
    (t : Fin 8192) (o : Fin 4096) : EReal :=
  (∑ k : Fin 4096, data (ix2 t k) * (weight (ix2 o k) * mask (ix2 o k))) + bias (ix1 o)

/-- The masked linear layer as one function of the four argument arrays, index by index. -/
def G (data : SData.Idx → EReal) (weight mask : SWeight.Idx → EReal) (bias : SBias.Idx → EReal) :
    SData.Idx → EReal :=
  fun i => g data weight mask bias (i 0) (i 1)

theorem G_apply (data : SData.Idx → EReal) (weight mask : SWeight.Idx → EReal) (bias : SBias.Idx → EReal)
    (t : Fin 8192) (o : Fin 4096) : G data weight mask bias (ix2 t o) = g data weight mask bias t o := rfl

end Cert.Spec

end
-- ==== Proof.Ideal.Result.lean ====
/-
  The kernel program's result is the masked linear layer of its four arguments.

  The second region finds: the data array as launched; in the first region's result buffer the entrywise product of
  the weights and the mask (a change of float format is the identity at the ideal values); and in the bias row's
  buffer the bias laid out as one row. Its own result, the product of the data with the transposed masked weights
  plus the bias row, is therefore `Spec.G` of the four arguments.
-/
import proofs.«167494_j73718818668813_2_alg».proof.Proof.Ideal.Run
import proofs.«167494_j73718818668813_2_alg».proof.Proof.Ideal.Weights
import proofs.«167494_j73718818668813_2_alg».proof.Proof.Ideal.Product
import proofs.«167494_j73718818668813_2_alg».proof.Proof.Spec
import Idealize.ShloMosaic.Lib.ValueLayout
import Idealize.ShloMosaic.Lib.StableHlo.Run

noncomputable section

open scoped BigOperators

namespace Cert.KernelIdeal.Val

open Cert.KernelIdeal Cert.KernelIdeal.Gen Cert.KernelIdeal.Frame
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The second region finds the data as launched. -/
theorem entry_data (c : Dev nD) : Vc m c main_arg0 = (m ((c : Thread nD τ).loc main_arg0)) :=
  (Wc_of m c main_arg0 (by decide)).trans (Wb_of_ne m c main_arg0 (by decide))

/-- It finds the masked weights where the first region wrote them. -/
theorem entry_weights (c : Dev nD) :
    (Vc m c main_v0 : S4096x4096.Idx → Elt Ideal .bf16) = masked (m ((c : Thread nD τ).loc main_arg1)) (m ((c : Thread nD τ).loc main_arg2)) :=
  (Wc_of m c main_v0 (by decide)).trans ((Wb_arr m c 2).trans (final0 (Va m) c))

/-- It finds the bias laid out as one row. -/
theorem entry_bias (c : Dev nD) :
    (Vc m c main_v1 : S1x4096.Idx → Elt Ideal .f32)
      = shapeCast S1x4096 ((m ((c : Thread nD τ).loc main_arg3)) : S4096.Idx → Elt Ideal .f32) shapeCasts_S4096_S1x4096 := by
  have e : (Wc m c (Proc.devRef .tc main_v1) : S1x4096.Idx → Elt Ideal .f32)
      = shapeCast S1x4096 (Wb m c (Proc.devRef .tc main_arg3) : S4096.Idx → Elt Ideal .f32) shapeCasts_S4096_S1x4096 := by
    dsimp only [Wc, hostOps1]; after_results; rfl
  refine e.trans ?_
  rw [Wb_of_ne m c main_arg3 (by decide)]

/-- The result array after the program is the masked linear layer of the four arguments. -/
theorem result_eq (c : Dev nD) :
    (dat1 (Vc m) c).arrAt 3 cfg1.N = Cert.Spec.G (m ((c : Thread nD τ).loc main_arg0)) (m ((c : Thread nD τ).loc main_arg1)) (m ((c : Thread nD τ).loc main_arg2)) (m ((c : Thread nD τ).loc main_arg3)) := by
  refine (final1 (Vc m) c).trans ?_
  rw [entry_data m c, entry_weights m c, entry_bias m c]
  funext i
  obtain ⟨T, O, rfl⟩ : ∃ (T : Fin 8192) (O : Fin 4096), i = ix2 T O := ⟨i 0, i 1, eq_ix2 i⟩
  show prodAt _ _ _ T O = Cert.Spec.g _ _ _ _ T O
  unfold prodAt Cert.Spec.g
  rw [shapeCast_a_1a_apply]
  rfl

/-- The program's run with its result named: the masked linear layer of the arguments, the arguments unchanged. -/
theorem run_G : θ_run defs (onTc (τ := τ) (main (F := Ideal))) ⟨m, fun _ => 0, ρ⟩ (fun r => ∀ c : Dev nD,
      r.2.mem ((c.tc : Thread nD τ).loc main_v2) = Cert.Spec.G (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m c), (h c).2⟩) (run_result m ρ)

end Cert.KernelIdeal.Val

end
-- ==== Proof.Ref.lean ====
/-
  The reference program computes the masked linear layer `Cert.Spec.G`.

  Its five host operations are: the entrywise product mask * weight; the contraction of data's second axis
  with that product's second axis (a sum over the 4096 input features); the bias laid out as one row and then
  repeated down all 8192 rows; and the entrywise sum of the two. Read at the entry (t, o) this is

      (sum over k of data[t, k] * (mask[o, k] * weight[o, k])) + bias[o],

  which is `Spec.g` after commuting the product of the mask and weight entries.
-/
import proofs.«167494_j73718818668813_2_alg».proof.Proof.Gen.ReferenceIdeal.Read
import proofs.«167494_j73718818668813_2_alg».proof.Proof.Spec

noncomputable section

open scoped BigOperators

namespace Cert.RefValue

open Cert.ReferenceIdeal Cert.ReferenceIdeal.Read Idealize.ShloMosaic Idealize.ShloMosaic.ValueIdx

/-- The data operand of the contraction at output entry (t, o) and summation index k is data[t, k]. -/
theorem lidx_eq (t : Fin 8192) (o k : Fin 4096) : lidx_main_v1 (ix2 t o) k = ix2 t k :=
  funext fun a => Fin.ext (by match a with | ⟨0, _⟩ => rfl | ⟨1, _⟩ => rfl)

/-- The matrix operand of the contraction at output entry (t, o) and summation index k is entry [o, k]. -/
theorem ridx_eq (t : Fin 8192) (o k : Fin 4096) : ridx_main_v1 (ix2 t o) k = ix2 o k :=
  funext fun a => Fin.ext (by match a with | ⟨0, _⟩ => rfl | ⟨1, _⟩ => rfl)

/-- The bias repeated down the rows, read at (t, o), is bias[o]. -/
theorem bidx_eq (t : Fin 8192) (o : Fin 4096) : idx_main_v2 (idx_main_v3 (ix2 t o)) = ix1 o :=
  funext fun a => Fin.ext (by match a with | ⟨0, _⟩ => rfl)

/-- The reference's result, as a function of the four arguments, is the masked linear layer. -/
theorem ref_eq (x0 : (⟨S8192x4096, .f32⟩ : BufTy).Contents (Elt Ideal))
    (x1 x2 : (⟨S4096x4096, .f32⟩ : BufTy).Contents (Elt Ideal)) (x3 : (⟨S4096, .f32⟩ : BufTy).Contents (Elt Ideal)) :
    val_main_v4 (F := Ideal) x0 x1 x2 x3 = Cert.Spec.G x0 x1 x2 x3 := by
  funext i
  obtain ⟨t, o, rfl⟩ : ∃ (t : Fin 8192) (o : Fin 4096), i = ix2 t o := ⟨i 0, i 1, eq_ix2 i⟩
  rw [val_main_v4_apply, val_main_v1_apply, val_main_v3_apply, val_main_v2_apply, Cert.Spec.G_apply]
  unfold Cert.Spec.g
  simp only [lidx_eq, ridx_eq, bidx_eq, val_main_v0_apply, Ideal.addf_def, Ideal.mulf_def]
  refine congrArg (· + x3 (ix1 o)) (Finset.sum_congr rfl fun k _ => ?_)
  rw [mul_comm (x2 (ix2 o k)) (x1 (ix2 o k))]

end Cert.RefValue

end
-- ==== Proof.lean ====
/-
  The certificate: a sparse (masked) linear layer computed by two kernel regions, against its reference.

  The kernel program first writes the entrywise product of the weights and the mask, narrowed to the half-width float
  format, band by band; then, block by block, it accumulates the product of the data with the transpose of that array
  over sixteen slabs of the input features in a scratch accumulator that is cleared at the first slab, and at the last
  slab adds the bias and writes the block out. The reference multiplies the mask and the weights, contracts the data
  against the result over all input features at once, and adds the bias.

  Frames: each program runs to the end, faults nowhere and leaves its arguments unchanged (the two kernel programs by
  their runs through both regions, the reference by its run of host operations).
  The idealization rewrote nothing, so there is nothing to preserve.
  Values: over the extended reals a change of float format is the identity and addition is commutative and associative
  with zero neutral, so the sixteen partial sums starting from zero are the one sum; the product of two entries
  commutes. Both programs end at `Cert.Spec.G` of the arguments. No finiteness of the inputs is used.
-/
import proofs.«167494_j73718818668813_2_alg».proof.Defs
import proofs.«167494_j73718818668813_2_alg».proof.Proof.Gen.Kernel
import proofs.«167494_j73718818668813_2_alg».proof.Proof.Gen.KernelIdeal
import proofs.«167494_j73718818668813_2_alg».proof.Proof.Gen.ReferenceIdeal
import proofs.«167494_j73718818668813_2_alg».proof.Proof.Gen.ReferenceIdeal.Run
import proofs.«167494_j73718818668813_2_alg».proof.Proof.Gen.Pre_finite_inputs
import proofs.«167494_j73718818668813_2_alg».proof.Proof.Bits.Run
import proofs.«167494_j73718818668813_2_alg».proof.Proof.Ideal.Result
import proofs.«167494_j73718818668813_2_alg».proof.Proof.Ref

noncomputable section

namespace Cert.Proof

open Idealize.ShloMosaic Idealize.ShloMosaic.TcCoe Idealize.SL.Sem

/-- The kernel program as printed runs and leaves its arguments unchanged. -/
theorem frame_k : Cert.frame_Kernel (hKernel := Cert.Kernel.Gen.facts) (hPre_finite_inputs := Cert.Pre_finite_inputs.Gen.facts) :=
  fun m ρ _ => Cert.Kernel.Frame.frame m ρ

/-- So does the kernel program read at the ideal values. -/
theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- So does the reference: its run of host operations, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the masked linear layer of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Val.run_G m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.RefValue.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
